-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S1x256 : Shape := ⟨2, ![1, 256]⟩
abbrev S1 : Shape := ⟨1, ![1]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S50000x128 .f32) (main_arg1 : FVec F S50000 .f32) (main_arg2 : FVec F S1x256 .f32) (main_arg3 : FVec F S1 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S50000x128 : Shape := ⟨2, ![50000, 128]⟩
abbrev S50000 : Shape := ⟨1, ![50000]⟩
abbrev S1x256 : Shape := ⟨2, ![1, 256]⟩
abbrev S1 : Shape := ⟨1, ![1]⟩
abbrev S800000 : Shape := ⟨1, ![800000]⟩
abbrev S1x128 : Shape := ⟨2, ![1, 128]⟩
abbrev S128x1 : Shape := ⟨2, ![128, 1]⟩
abbrev S50000x1 : Shape := ⟨2, ![50000, 1]⟩
abbrev S_ : Shape := ⟨0, ![]⟩
abbrev S800000x1 : Shape := ⟨2, ![800000, 1]⟩
abbrev S800000x128 : Shape := ⟨2, ![800000, 128]⟩
abbrev S8000x128 : Shape := ⟨2, ![8000, 128]⟩
abbrev S8000x1 : Shape := ⟨2, ![8000, 1]⟩

abbrev nBuf : Space → Nat
  | .hbm => 72
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S1x256, .f32⟩
  | .hbm, ⟨3, _⟩ => ⟨S1, .f32⟩
  | .hbm, ⟨4, _⟩ => ⟨S800000, .i32⟩
  | .hbm, ⟨5, _⟩ => ⟨S800000, .i32⟩
  | .hbm, ⟨6, _⟩ => ⟨S1x128, .f32⟩
  | .hbm, ⟨7, _⟩ => ⟨S1x128, .f32⟩
  | .hbm, ⟨8, _⟩ => ⟨S128x1, .f32⟩
  | .hbm, ⟨9, _⟩ => ⟨S50000x1, .f32⟩
  | .hbm, ⟨10, _⟩ => ⟨S50000, .f32⟩
  | .hbm, ⟨11, _⟩ => ⟨S128x1, .f32⟩
  | .hbm, ⟨12, _⟩ => ⟨S50000x1, .f32⟩
  | .hbm, ⟨13, _⟩ => ⟨S50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S800000, .f32⟩
  | .hbm, ⟨33, _⟩ => ⟨S_, .f32⟩
  | .hbm, ⟨34, _⟩ => ⟨S800000, .f32⟩
  | .hbm, ⟨35, _⟩ => ⟨S800000, .f32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000, .f32⟩
  | .hbm, ⟨56, _⟩ => ⟨S800000, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S800000x1, .f32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x1, .f32⟩
  | .local _ .vmem, ⟨3, _⟩ => ⟨S8000x1, .f32⟩
  | .local _ .vmem, ⟨4, _⟩ => ⟨S8000x128, .f32⟩
  | .local _ .vmem, ⟨5, _⟩ => ⟨S8000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_c_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S1x256_S1x128_0_0 : S1x256.Slices ![0, 0] S1x128
  slices_S1x256_S1x128_0_128 : S1x256.Slices ![0, 128] S1x128
  transposes_S1x128_S128x1_1_0 : S1x128.Transposes [1, 0] S128x1
  shapeCasts_S50000x1_S50000 : S50000x1.ShapeCasts S50000
  bcast_S_S800000 : S_.BroadcastsInDim S800000 (![] : Fin 0 → Fin S800000.rank)
  bcast_S800000_S800000x1_0 : S800000.BroadcastsInDim S800000x1 (![0] : Fin 1 → Fin S800000x1.rank)
  shapeCasts_S1_S_ : S1.ShapeCasts S_
  shapeCasts_S800000_S800000x1 : S800000.ShapeCasts S800000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S50000x128 : S_.BroadcastsInDim S50000x128 (![] : Fin 0 → Fin S50000x128.rank)
  dot_S50000x128_S128x1_S50000x1_1_0_0_1_n_n_wf : DotDims.WF S50000x128 S128x1 S50000x1 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S800000x1.size a
  hwx0_1 : ∀ i : grid0.Coords, EltTy.bits .f32 = 32 ∨ (Rect.block (s := S800000x1) S8000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S800000x128.size a
  hwx0_2 : ∀ i : grid0.Coords, EltTy.bits .f32 = 32 ∨ (Rect.block (s := S800000x128) S8000x128.size (cc0_transform_2 i) (hinb0_2 i)).WholeWords (EltTy.packing .f32)

variable [Facts₀]

def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v49) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000 : Shape := ⟨1, ![50000]⟩
abbrev S1x256 : Shape := ⟨2, ![1, 256]⟩
abbrev S1 : Shape := ⟨1, ![1]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S128x1 : Shape := ⟨2, ![128, 1]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S1x256, .f32⟩
  | .hbm, ⟨3, _⟩ => ⟨S1, .f32⟩
  | .hbm, ⟨4, _⟩ => ⟨S800000, .i32⟩
  | .hbm, ⟨5, _⟩ => ⟨S800000, .i32⟩
  | .hbm, ⟨6, _⟩ => ⟨S1x128, .f32⟩
  | .hbm, ⟨7, _⟩ => ⟨S1x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S128x1, .f32⟩
  | .hbm, ⟨27, _⟩ => ⟨S800000x1, .f32⟩
  | .hbm, ⟨28, _⟩ => ⟨S128x1, .f32⟩
  | .hbm, ⟨29, _⟩ => ⟨S800000x1, .f32⟩
  | .hbm, ⟨30, _⟩ => ⟨S800000x1, .f32⟩
  | .hbm, ⟨31, _⟩ => ⟨S1x1, .f32⟩
  | .hbm, ⟨32, _⟩ => ⟨S800000x1, .f32⟩
  | .hbm, ⟨33, _⟩ => ⟨S800000x1, .f32⟩
  | .hbm, ⟨34, _⟩ => ⟨S800000x1, .f32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000, .f32⟩
  | .hbm, ⟨55, _⟩ => ⟨S800000, .f32⟩
  | .hbm, ⟨56, _⟩ => ⟨S800000x1, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  slices_S1x256_S1x128_0_0 : S1x256.Slices ![0, 0] S1x128
  slices_S1x256_S1x128_0_128 : S1x256.Slices ![0, 128] S1x128
  bcast_S_S800000 : S_.BroadcastsInDim S800000 (![] : Fin 0 → Fin S800000.rank)
  bcast_S800000_S800000x1_0 : S800000.BroadcastsInDim S800000x1 (![0] : Fin 1 → Fin S800000x1.rank)
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S800000x128_S128x1_S800000x1_1_0_0_1_n_n_wf : DotDims.WF S800000x128 S128x1 S800000x1 [1] [0] [0] [1] [] []
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelHost.lean ====
/-
  What the edge kernel is launched on. Before the launch the host computes two arrays from the graph: the gathered
  source rows `h[src]` (one row of 128 features per edge) and, as a column, the per-edge scale
  `e = tanh(p_d[dst] + p_s[src] + b) · deg[dst] · deg[src]`, where `p_d = h · w_dᵀ` and `p_s = h · w_sᵀ` are the two
  per-NODE projections of the features on the two halves of the gate weight. Here the two arrays the launch finds are
  named as those functions of the six arguments.
-/
import proofs.«128665_j91164975825062_2_alg».proof.Proof.Gen.KernelIdeal.Frame
import Idealize.ShloMosaic.Lib.StableHlo.Run
import Idealize.ShloMosaic.PureOps.Ideal

noncomputable section

namespace Cert.KernelIdeal.Edges

open Cert.KernelIdeal Cert.KernelIdeal.Gen Idealize.ShloMosaic Idealize.ShloMosaic.TcCoe Idealize.SL.Sem Idealize.ShloMosaic.StableHlo

/-- A vector of node numbers as the gathers take it: a negative entry counted from the end (`+ 50000`), the result laid
    out as a column of start indices. -/
def nodeColumn (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The projection of every node's features on the gate weight's first half, `h · w_dᵀ`, as a vector over the nodes. -/
def projDst (x0 : FVec Ideal S50000x128 .f32) (x2 : FVec Ideal S1x256 .f32) : FVec Ideal S50000 .f32 :=
  shapeCast S50000 (Host.dotGeneral (F := Ideal) dot_S50000x128_S128x1_S50000x1_1_0_0_1_n_n none x0
    (transpose S128x1 [1, 0] (extractStridedSlice S1x128 ![0, 0] x2 slices_S1x256_S1x128_0_0) transposes_S1x128_S128x1_1_0))
    shapeCasts_S50000x1_S50000

/-- The projection on the second half, `h · w_sᵀ`. -/
def projSrc (x0 : FVec Ideal S50000x128 .f32) (x2 : FVec Ideal S1x256 .f32) : FVec Ideal S50000 .f32 :=
  shapeCast S50000 (Host.dotGeneral (F := Ideal) dot_S50000x128_S128x1_S50000x1_1_0_0_1_n_n none x0
    (transpose S128x1 [1, 0] (extractStridedSlice S1x128 ![0, 128] x2 slices_S1x256_S1x128_0_128) transposes_S1x128_S128x1_1_0))
    shapeCasts_S50000x1_S50000

/-- The gate's argument per edge: `p_d[dst] + p_s[src] + b`. -/
def preGate (x0 : FVec Ideal S50000x128 .f32) (x2 : FVec Ideal S1x256 .f32) (x3 : FVec Ideal S1 .f32)
    (x4 x5 : IVec S800000 32) : FVec Ideal S800000 .f32 :=
  addf (F := Ideal) (addf (F := Ideal) (Host.gather gather_S50000_S800000x1_S800000_n_0_n_n_0_1_1 (projDst x0 x2) (nodeColumn x5))
      (Host.gather gather_S50000_S800000x1_S800000_n_0_n_n_0_1_1 (projSrc x0 x2) (nodeColumn x4)))
    (broadcastInDim S800000 ![] bcast_S_S800000 (shapeCast S_ x3 shapeCasts_S1_S_))

/-- The per-edge scale `tanh(…) · deg[dst] · deg[src]`. -/
def edgeScale (x0 : FVec Ideal S50000x128 .f32) (x1 : FVec Ideal S50000 .f32) (x2 : FVec Ideal S1x256 .f32)
    (x3 : FVec Ideal S1 .f32) (x4 x5 : IVec S800000 32) : FVec Ideal S800000 .f32 :=
  mulf (F := Ideal) (mulf (F := Ideal) (Host.tanh (F := Ideal) (preGate x0 x2 x3 x4 x5))
      (Host.gather gather_S50000_S800000x1_S800000_n_0_n_n_0_1_1 x1 (nodeColumn x5)))
    (Host.gather gather_S50000_S800000x1_S800000_n_0_n_n_0_1_1 x1 (nodeColumn x4))

/-- The gathered source rows `h[src]`. -/
def srcRows (x0 : FVec Ideal S50000x128 .f32) (x4 : IVec S800000 32) : FVec Ideal S800000x128 .f32 :=
  Host.gather gather_S50000x128_S800000x1_S800000x128_1_0_n_n_0_1_1128 x0 (nodeColumn x4)

variable (m : (ℓ : Loc nD τ sig) → Buf (Elt Ideal) ℓ)

set_option maxRecDepth 8192 in
set_option maxHeartbeats 2000000 in
/-- The first window's array at the launch is `h[src]`. -/
theorem rows_at_launch (c : Dev nD) :
    (V m c main_v49 : S800000x128.Idx → EReal)
      = srcRows (m ((c : Thread nD τ).loc main_arg0)) (m ((c : Thread nD τ).loc main_arg4)) := by
  show StableHlo.after hostOps0 (fun b => m (c, b)) (Proc.devRef .tc main_v49) = _
  after_results_simp <;> rfl

set_option maxRecDepth 8192 in
set_option maxHeartbeats 2000000 in
/-- The second window's array at the launch is the per-edge scale as a column. -/
theorem scale_at_launch (c : Dev nD) :
    (V m c main_v50 : S800000x1.Idx → EReal)
      = shapeCast S800000x1 (edgeScale (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))) shapeCasts_S800000_S800000x1 := by
  show StableHlo.after hostOps0 (fun b => m (c, b)) (Proc.devRef .tc main_v50) = _
  after_results_simp <;> rfl

end Cert.KernelIdeal.Edges

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.KernelMessage.lean ====
/-
  What the edge kernel leaves in its output array. The launch walks the 800000 edges in 100 blocks of 8000; at block
  `t` the body multiplies the block's 8000×128 rows entry by entry with the block's 8000×1 column broadcast along the
  rows, and the result is written back to rows `8000·t … 8000·t + 7999` of the output. So entry `(r, k)` of the output
  is `a[r, k] · e[r, 0]` of the two arrays the launch found, whatever block `r` falls in: the blocks are restrictions
  of one whole-array function, and they tile the array.
-/
import proofs.«128665_j91164975825062_2_alg».proof.Proof.Gen.KernelIdeal.Frame
import proofs.«128665_j91164975825062_2_alg».proof.Proof.LibKeepdimsColumn
import Idealize.ShloMosaic.Lib.Pipeline.Value
import Idealize.ShloMosaic.Lib.ValueIdx
import Idealize.ShloMosaic.PureOps.Ideal

set_option maxRecDepth 16384

noncomputable section

namespace Cert.KernelIdeal.Edges

open Cert.KernelIdeal Cert.KernelIdeal.Gen Idealize.ShloMosaic Idealize.ShloMosaic.TcCoe Idealize.SL.Sem
open Idealize.ShloMosaic.ValueIdx Idealize.ShloMosaic.Pipeline

/-- Every row of `a` scaled by that row's entry of the column `e`. -/
def scaledRows (a : S800000x128.Idx → EReal) (e : S800000x1.Idx → EReal) : S800000x128.Idx → EReal :=
  fun j => a j * e (ix2 (⟨(j 0).val, idx2_lt0 j⟩ : Fin 800000) (0 : Fin 1))

/-- The body's one stored value at `(p, q)`: the rows block at `(p, q)` times the column block at `(p, 0)`. -/
theorem stored_apply (x0 : Vec Ideal S8000x128 .f32) (x1 : Vec Ideal S8000x1 .f32) (p : Fin 8000) (q : Fin 128) :
    (k0_pay1 (F := Ideal) x0 x1 (ix2 p q) : EReal) = (x0 (ix2 p q) : EReal) * (x1 (ix2 p (0 : Fin 1)) : EReal) := by
  unfold k0_pay1
  show (shapeCast S8000x128 x0 shapeCasts_S8000x128_S8000x128 (ix2 p q) : EReal)
      * (broadcastTo S8000x128 (shapeCast S8000x1 x1 shapeCasts_S8000x1_S8000x1) broadcasts_S8000x1_S8000x128 (ix2 p q) : EReal) = _
  rw [shapeCast_self, shapeCast_self, Cert.Gcn.Lib.broadcastTo_a1_ab_apply]

/-- The product of two extended reals. -/
abbrev times (a b : EReal) : EReal := a * b

theorem origin_zero : (![0, 0] : Fin 2 → Nat) = fun _ => 0 := funext fun a => by fin_cases a <;> rfl

/-- The three index maps over the grid: at point `t` all three windows are at block row `t`, block column `0`. -/
theorem block_positions : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (1 : Fin 2) = 0
    ∧ win0_2.index t (0 : Fin 2) = t.val :=
  (by decide +kernel : ∀ t : Fin grid0.N, _)

variable (m : (ℓ : Loc nD τ sig) → Buf (Elt Ideal) ℓ)

/-- What point `t` writes back is block `t` of the scaled rows of the two arrays the launch found. -/
theorem flushed_eq (c : Dev nD) (t : Fin cfg0.N) :
    (dats m 0 c).flushed 2 t
      = ((cfg0.win 2).blk t).view.read (Elt Ideal) (scaledRows (V m c main_v49) (V m c main_v50)) := by
  show (cfg0.win 2).cut (grid0.coords t) ((dats m 0 c).after 2 t) = _
  rw [after0_2]
  unfold out0_2
  rw [View.canon_unit_zero origin_zero]
  simp only [View.ld_unit_zero (S := S8000x128) origin_zero, View.ld_unit_zero (S := S8000x1) origin_zero]
  obtain ⟨e0, e1, e2, e3, e4, e5⟩ := block_positions t
  funext j
  have hj0 : (j 0).val < 8000 := (j 0).isLt
  have hj1 : (j 1).val < 128 := (j 1).isLt
  refine ((congrArg (k0_pay1 (F := Ideal) (iblk m c 0 t) (iblk m c 1 t)) (eq_ix2 j)).trans
    (stored_apply (iblk m c 0 t) (iblk m c 1 t) ⟨(j 0).val, hj0⟩ ⟨(j 1).val, hj1⟩)).trans ?_
  show times (V m c main_v49 (((cfg0.win 0).blk t).view.emb (ix2 ⟨(j 0).val, hj0⟩ ⟨(j 1).val, hj1⟩)))
      (V m c main_v50 (((cfg0.win 1).blk t).view.emb (ix2 ⟨(j 0).val, hj0⟩ (0 : Fin 1))))
    = times (V m c main_v49 (((cfg0.win 2).blk t).view.emb j))
      (V m c main_v50 (ix2 (⟨((((cfg0.win 2).blk t).view.emb j) 0).val, idx2_lt0 _⟩ : Fin 800000) (0 : Fin 1)))
  have h0 : ((cfg0.win 0).blk t).view.emb (ix2 ⟨(j 0).val, hj0⟩ ⟨(j 1).val, hj1⟩) = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (ix2 ⟨(j 0).val, hj0⟩ (0 : Fin 1))
      = ix2 (⟨((((cfg0.win 2).blk t).view.emb j) 0).val, idx2_lt0 _⟩ : Fin 800000) (0 : Fin 1) := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 1 + 1 * 0 = 0; omega
  rw [h0, h1]

/-- An index of the output array is in point `t`'s block iff each coordinate is in the block's range on its axis. -/
theorem mem_block (t : Fin cfg0.N) (i : S800000x128.Idx) :
    i ∈ ((cfg0.win 2).blk t).view.set ↔ ∀ a : Fin 2, win0_2.index t a * S8000x128.size a ≤ (i a).val
      ∧ (i a).val < win0_2.index t a * S8000x128.size a + S8000x128.size a := by
  show i ∈ ((View.whole main_v51).slice (win0_2.rect t)).set ↔ _
  rw [View.set_slice_whole, Rect.mem_set_unit]
  exact Iff.rfl

/-- Every entry of the output array is written by the point of its row's block, `r / 8000`. -/
theorem covered (i : S800000x128.Idx) :
    ∃ t : Fin cfg0.N, (cfg0.win 2).flush t = true ∧ i ∈ ((cfg0.win 2).blk t).view.set := by
  have hi0 : (i 0).val < 800000 := idx2_lt0 i
  have hi1 : (i 1).val < 128 := idx2_lt1 i
  have hN : (i 0).val / 8000 < cfg0.N := by
    show _ < grid0.N
    rw [N_0]; omega
  obtain ⟨_, _, _, _, e4, e5⟩ := block_positions ⟨(i 0).val / 8000, hN⟩
  have e5' : win0_2.index ⟨(i 0).val / 8000, hN⟩ (0 : Fin 2) = (i 0).val / 8000 := e5
  refine ⟨⟨(i 0).val / 8000, hN⟩, flush0_2 _, ?_⟩
  rw [mem_block]
  intro a
  match a with
  | ⟨0, _⟩ =>
    show win0_2.index ⟨(i 0).val / 8000, hN⟩ (0 : Fin 2) * 8000 ≤ (i 0).val
      ∧ (i 0).val < win0_2.index ⟨(i 0).val / 8000, hN⟩ (0 : Fin 2) * 8000 + 8000
    rw [e5']; omega
  | ⟨1, _⟩ =>
    show win0_2.index ⟨(i 0).val / 8000, hN⟩ (1 : Fin 2) * 128 ≤ (i 1).val
      ∧ (i 1).val < win0_2.index ⟨(i 0).val / 8000, hN⟩ (1 : Fin 2) * 128 + 128
    rw [e4]; omega

/-- The output array after the launch: the scaled rows of the two arrays the launch found. -/
theorem message_final (c : Dev nD) :
    (dats m 0 c).arrAt 2 cfg0.N = scaledRows (V m c main_v49) (V m c main_v50) :=
  (dats m 0 c).arrAt_eq_of_cover 2 _ (fun t _ => flushed_eq m c t) covered

end Cert.KernelIdeal.Edges

end
-- ==== Proof.KernelRun.lean ====
/-
  The whole idealized kernel program, read back. After the launch the host sums the messages at each destination
  node: it scatters the 800000 message rows into a zero `[50000, 128]` array at the rows `dst` names, adding. So the
  program's result is that aggregation of the scaled rows `h[src] · e`, with `e` the per-edge scale the host computed
  before the launch, and the six arguments end as they started.
-/
import proofs.«128665_j91164975825062_2_alg».proof.Proof.KernelHost
import proofs.«128665_j91164975825062_2_alg».proof.Proof.KernelMessage

noncomputable section

namespace Cert.KernelIdeal.Edges

open Cert.KernelIdeal Cert.KernelIdeal.Gen Idealize.ShloMosaic Idealize.ShloMosaic.TcCoe Idealize.SL.Sem Idealize.ShloMosaic.StableHlo

/-- The sum of the message rows at each destination node: a scatter-add of the rows into zeros at the rows `dst` names. -/
def aggregate (x5 : IVec S800000 32) (msg : FVec Ideal S800000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 x5) msg

/-- The messages as a function of the six arguments: the gathered source rows, each scaled by its edge's scale. -/
def messages (x0 : FVec Ideal S50000x128 .f32) (x1 : FVec Ideal S50000 .f32) (x2 : FVec Ideal S1x256 .f32)
    (x3 : FVec Ideal S1 .f32) (x4 x5 : IVec S800000 32) : FVec Ideal S800000x128 .f32 :=
  scaledRows (srcRows x0 x4) (shapeCast S800000x1 (edgeScale x0 x1 x2 x3 x4 x5) shapeCasts_S800000_S800000x1)

variable (m : (ℓ : Loc nD τ sig) → Buf (Elt Ideal) ℓ) (ρ : Dev nD → PrngReg)

/-- The output array of the launch, as a function of the arguments. -/
theorem messages_final (c : Dev nD) :
    (dats m 0 c).arrAt 2 cfg0.N = messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (message_final m c).trans (congrArg₂ scaledRows (rows_at_launch m c) (scale_at_launch m c))

/-- The result buffer after the host lines that follow the launch. -/
theorem result_after (c : Dev nD) :
    Pipeline.afterTail₀ cfgs (dats m) 0 (V0 m) [hostOps1] c main_v54
      = aggregate (m ((c : Thread nD τ).loc main_arg5)) (messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  unfold Pipeline.afterTail₀
  show StableHlo.after hostOps1 _ (Proc.devRef .tc main_v54) = _
  after_results
  have hmsg : Pipeline.withArrays (cfgs 0).spec c (V0 m c) (fun w => (dats m 0 c).arrAt w (cfgs 0).N) (Proc.devRef .tc main_v51)
      = messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (Pipeline.withArrays_arr spec0 launch0.win.arr_inj c _ _ 2).trans (messages_final m c)
  have hdst : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  rw [hmsg, hdst]
  rfl

/-- Every weakly fair execution of the idealized kernel program terminates with the result at the aggregated
    messages and the arguments unchanged. -/
theorem run : θ_run defs (onTc (τ := τ) (main (F := Ideal))) ⟨m, fun _ => 0, ρ⟩ fun r => ∀ c : Dev nD,
      r.2.mem ((c.tc : Thread nD τ).loc main_v54)
        = aggregate (m ((c : Thread nD τ).loc main_arg5)) (messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v54 (Pipeline.mem_restRefs_of main_v54 (by decide) (by decide))).trans (result_after m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Edges

end
-- ==== Proof.RefRun.lean ====
/-
  The idealized reference, read back with its stages named. Per edge it gathers the source row `h[src]` and the
  destination row `h[dst]`, projects the two on the two halves of the gate weight, adds the bias, takes `tanh`, and
  multiplies by `deg[dst]` and `deg[src]`: the per-edge scale `e`. The message of an edge is its source row times
  `e`, and the result sums the messages at each destination node. The projections are taken AFTER the gathers here
  (one 128-term sum per edge and half), where the kernel program takes them once per node BEFORE gathering.
-/
import proofs.«128665_j91164975825062_2_alg».proof.Proof.Gen.ReferenceIdeal.Run
import Idealize.ShloMosaic.PureOps.Ideal

noncomputable section

namespace Cert.ReferenceIdeal.Edges

open Cert.ReferenceIdeal Cert.ReferenceIdeal.Gen Idealize.ShloMosaic Idealize.ShloMosaic.TcCoe Idealize.SL.Sem Idealize.ShloMosaic.StableHlo

/-- A vector of node numbers as the gathers take it: a negative entry counted from the end (`+ 50000`), the result laid
    out as a column of start indices. -/
def nodeColumn (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The rows of `h` a vector of node numbers selects, one row per edge. -/
def rowsAt (x0 : FVec Ideal S50000x128 .f32) (s : IVec S800000 32) : FVec Ideal S800000x128 .f32 :=
  Host.gather gather_S50000x128_S800000x1_S800000x128_1_0_n_n_0_1_1128 x0 (nodeColumn s)

/-- The gate's argument per edge, as a column: `h[dst] · w_dᵀ + h[src] · w_sᵀ + b`. -/
def gateColumn (x0 : FVec Ideal S50000x128 .f32) (x2 : FVec Ideal S1x256 .f32) (x3 : FVec Ideal S1 .f32)
    (x4 x5 : IVec S800000 32) : FVec Ideal S800000x1 .f32 :=
  addf (F := Ideal) (addf (F := Ideal)
      (Host.dotGeneral (F := Ideal) dot_S800000x128_S128x1_S800000x1_1_0_0_1_n_n none (rowsAt x0 x5)
        (transpose S128x1 [1, 0] (extractStridedSlice S1x128 ![0, 0] x2 slices_S1x256_S1x128_0_0) transposes_S1x128_S128x1_1_0))
      (Host.dotGeneral (F := Ideal) dot_S800000x128_S128x1_S800000x1_1_0_0_1_n_n none (rowsAt x0 x4)
        (transpose S128x1 [1, 0] (extractStridedSlice S1x128 ![0, 128] x2 slices_S1x256_S1x128_0_128) transposes_S1x128_S128x1_1_0)))
    (broadcastInDim S800000x1 ![0, 1] bcast_S1x1_S800000x1_0_1 (broadcastInDim S1x1 ![1] bcast_S1_S1x1_1 x3))

/-- The per-edge scale `tanh(…) · deg[dst] · deg[src]`. -/
def edgeScale (x0 : FVec Ideal S50000x128 .f32) (x1 : FVec Ideal S50000 .f32) (x2 : FVec Ideal S1x256 .f32)
    (x3 : FVec Ideal S1 .f32) (x4 x5 : IVec S800000 32) : FVec Ideal S800000 .f32 :=
  mulf (F := Ideal) (mulf (F := Ideal)
      (shapeCast S800000 (Host.tanh (F := Ideal) (gateColumn x0 x2 x3 x4 x5)) shapeCasts_S800000x1_S800000)
      (Host.gather gather_S50000_S800000x1_S800000_n_0_n_n_0_1_1 x1 (nodeColumn x5)))
    (Host.gather gather_S50000_S800000x1_S800000_n_0_n_n_0_1_1 x1 (nodeColumn x4))

/-- The messages: each edge's source row times the edge's scale. -/
def messages (x0 : FVec Ideal S50000x128 .f32) (x1 : FVec Ideal S50000 .f32) (x2 : FVec Ideal S1x256 .f32)
    (x3 : FVec Ideal S1 .f32) (x4 x5 : IVec S800000 32) : FVec Ideal S800000x128 .f32 :=
  mulf (F := Ideal) (rowsAt x0 x4)
    (broadcastInDim S800000x128 ![0, 1] bcast_S800000x1_S800000x128_0_1
      (broadcastInDim S800000x1 ![0] bcast_S800000_S800000x1_0 (edgeScale x0 x1 x2 x3 x4 x5)))

/-- The sum of the message rows at each destination node: a scatter-add of the rows into zeros at the rows `dst` names. -/
def aggregate (x5 : IVec S800000 32) (msg : FVec Ideal S800000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 x5) msg

variable (m : (ℓ : Loc nD τ sig) → Buf (Elt Ideal) ℓ) (ρ : Dev nD → PrngReg)

/-- Every weakly fair execution of the idealized reference terminates with the result at the aggregated messages and
    the arguments unchanged: the generated run, with its composed term folded into the stages named above. -/
theorem run : θ_run defs (onTc (τ := τ) (main (F := Ideal))) ⟨m, fun _ => 0, ρ⟩ fun r => ∀ c : Dev nD,
      r.2.mem ((c.tc : Thread nD τ).loc main_v47)
        = aggregate (m ((c.tc : Thread nD τ).loc main_arg5)) (messages (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run (F := Ideal) m ρ

end Cert.ReferenceIdeal.Edges

end
-- ==== Proof.LibRowGather.lean ====
/-
  Gathering rows of a table. For a table `x : [N, C]` and a column of start indices `idx : [R, 1]`, the
  gather with one collapsed row axis and one offset axis of full width `C` returns, at result entry
  `(r, k)`, the table's entry `(ρ, k)`, where the row `ρ` is the start index `idx[r, 0]` read as a signed
  integer and clamped into `[0, N − 1]`. The column coordinate passes through unchanged: the offset axis has
  start `0` and the slice is the whole row.
-/
import Idealize.ShloMosaic.Lib.ValueIdx

noncomputable section

namespace Cert.Lib.RowGather

open Idealize.ShloMosaic Idealize.ShloMosaic.ValueIdx

variable {α : Type}

/-- The dimension numbers of a row gather: result axis 1 is the offset axis, table axis 0 is collapsed and is
    the axis the start index addresses, the index vector lies along axis 1 of the start indices, and a slice is
    one row of `C` entries. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start-index word selects in a table of `N` rows: the word as a signed integer, negative values
    sent to `0`, clamped to the last row. -/
def rowOf (N : Nat) (hN : 0 < N) {w : Nat} (b : BitVec w) : Fin N := ⟨min b.toInt.toNat (N - 1), by omega⟩

/-- A row gather read at `(r, k)`: the table at the selected row and the same column. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k) = x (ix2 (rowOf N hN (idx (ix2 r 0))) k) := by
  -- the two coordinates of the table index the gather reads, one axis at a time
  have hb : ∀ a, (rowDims N R C wf).batchCoord (ix2 r k) a = 0 := fun a =>
    GatherDims.batchCoord_eq_zero _ _ _ List.not_mem_nil
  have h0 : (rowDims N R C wf).start (ix2 r k) idx (0 : Fin 2) + (rowDims N R C wf).batchCoord (ix2 r k) (0 : Fin 2)
      + (rowDims N R C wf).offCoord (ix2 r k) (0 : Fin 2) = (rowOf N hN (idx (ix2 r 0))).val := by
    rw [hb, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  have h1 : (rowDims N R C wf).start (ix2 r k) idx (1 : Fin 2) + (rowDims N R C wf).batchCoord (ix2 r k) (1 : Fin 2)
      + (rowDims N R C wf).offCoord (ix2 r k) (1 : Fin 2) = k.val := by
    have ne10 : ¬((1 : Fin 2) = 0) := by decide
    have hn : (1 : Fin 2) ∉ (rowDims N R C wf).startIndexMap := fun h =>
      ne10 (List.mem_singleton.mp h)
    have hk : (1 : Fin 2) ∈ (rowDims N R C wf).sKept :=
      (GatherDims.mem_sKept _ _).mpr ⟨fun h => ne10 (List.mem_singleton.mp h), List.not_mem_nil⟩
    rw [hb]
    unfold GatherDims.start
    rw [dif_neg hn]
    unfold GatherDims.offCoord
    rw [dif_pos hk]
    simp only [Nat.zero_add, Nat.add_zero]
    rfl
  unfold Host.gather
  congr 1
  funext a
  refine Fin.ext ?_
  match a with
  | ⟨0, _⟩ => exact h0
  | ⟨1, _⟩ => exact h1

end Cert.Lib.RowGather

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibColumnTake.lean ====
/-
  Taking entries of a vector at a column of start indices, read at an index.

  `x[idx]` for a flat array `x : [N]` and an index vector `idx : [R]` lowers to a gather whose start indices are the
  column `[R, 1]`: the one operand axis is collapsed, there is no offset axis, and a slice is one entry. The result at
  `r` is `x` at the start index `idx[r, 0]` read as a signed integer and clamped into `[0, N − 1]` — the same row
  selection as a gather of whole rows of an `[N, C]` table by the same column. With it, the cast of a column
  `[a, 1]` back to the vector `[a]` read at an index.
-/
import Idealize.ShloMosaic.Lib.Pipeline.Value
import Idealize.ShloMosaic.Lib.ValueIdx
import proofs.«128665_j91164975825062_2_alg».proof.Proof.LibRowGather

noncomputable section

namespace Cert.Lib.ColumnTake

open Idealize.ShloMosaic Idealize.ShloMosaic.ValueIdx Cert.Lib.RowGather

variable {α : Type}

/-- The dimension numbers of taking entries at a column of start indices: no offset axis, the operand's one axis
    collapsed and addressed by the start index, the index vector along axis 1 of the start indices, a slice one entry. -/
abbrev colDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the operand at the entry the start index `idx[r, 0]` selects. -/
theorem gather_column_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (colDims N R wf) x idx (ix1 r) = x (ix1 (rowOf N hN (idx (ix2 r 0)))) := by
  unfold Host.gather
  congr 1
  funext a
  obtain rfl : a = 0 := Subsingleton.elim _ _
  refine Fin.ext ?_
  show (colDims N R wf).start (ix1 r) idx 0 + (colDims N R wf).batchCoord (ix1 r) 0 + (colDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx (ix1 r) ⟨List.idxOf (0 : Fin 1) (colDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- An `[a, 1]` column cast to the vector `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.Lib.ColumnTake

end
-- ==== Proof.LibGatherProject.lean ====
/-
  A projection commutes with a row selection.

  Let `x : [N, C]` be a table, `v : [C, 1]` a column, and `idx : [R, 1]` a column of start indices. Projecting every
  row of the table on `v` and then taking the projections at `idx` gives, entry by entry, what projecting the gathered
  rows gives: both are `∑ k, x[ρ, k] · v[k, 0]` for the row `ρ` that `idx[r, 0]` selects. No property of the extended
  reals is used: the two sums have the same terms in the same order.
-/
import Idealize.ShloMosaic.Lib.ValueIdx
import Idealize.ShloMosaic.PureOps.Ideal.Laws
import proofs.«128665_j91164975825062_2_alg».proof.Proof.LibRowGather
import proofs.«128665_j91164975825062_2_alg».proof.Proof.LibPlainDot
import proofs.«128665_j91164975825062_2_alg».proof.Proof.LibColumnTake

noncomputable section

namespace Cert.Lib.GatherProject

open Idealize.ShloMosaic Idealize.ShloMosaic.ValueIdx Cert.Lib.RowGather Cert.Lib.PlainDot Cert.Lib.ColumnTake

/-- The projections `x · v` of all rows, recast from the column `[N, 1]` to a vector and taken at the start indices,
    are at `r` the projection of the gathered rows at `(r, 0)`. The two products may carry any precision attribute and
    schedule; their dimension numbers are the plain ones. -/
theorem take_proj_eq_proj_rows {N R C w : Nat} {φ₁ φ₂ : FTy} (hN : 0 < N)
    (wf2 : GatherDims.WF ⟨2, ![N, C]⟩ ⟨2, ![R, 1]⟩ ⟨2, ![R, C]⟩ [1] [0] [] [0] [] 1 ![1, C])
    (wf1 : GatherDims.WF ⟨1, ![N]⟩ ⟨2, ![R, 1]⟩ ⟨1, ![R]⟩ [] [0] [] [0] [] 1 ![1])
    (dN : DotDims ⟨2, ![N, C]⟩ ⟨2, ![C, 1]⟩ ⟨2, ![N, 1]⟩) (hdN : dN = DotDims.plain N C 1)
    (dR : DotDims ⟨2, ![R, C]⟩ ⟨2, ![C, 1]⟩ ⟨2, ![R, 1]⟩) (hdR : dR = DotDims.plain R C 1)
    (hc : (⟨2, ![N, 1]⟩ : Shape).ShapeCasts ⟨1, ![N]⟩)
    (precN precR : Option ContractPrecision) (schedN schedR : HostSchedule)
    (x : FVec Ideal ⟨2, ![N, C]⟩ φ₁) (v : FVec Ideal ⟨2, ![C, 1]⟩ φ₂) (idx : IVec ⟨2, ![R, 1]⟩ w) (r : Fin R) :
    Host.gather (colDims N R wf1) (shapeCast ⟨1, ![N]⟩ (FloatOps.dotGeneral dN precN schedN x v) hc) idx (ix1 r)
      = FloatOps.dotGeneral dR precR schedR (Host.gather (rowDims N R C wf2) x idx) v (ix2 r (0 : Fin 1)) := by
  rw [gather_column_apply hN, shapeCast_a1_a_apply, dotGeneral_eq dN hdN, dotGeneral_eq dR hdR]
  exact (rowsByCols_congr x v (Host.gather (rowDims N R C wf2) x idx) v (ix2 r (0 : Fin 1))
    (ix2 (rowOf N hN (idx (ix2 r 0))) (0 : Fin 1)) (fun k => gather_rows_apply hN wf2 x idx r k) (fun _ => rfl)).symm

end Cert.Lib.GatherProject

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.Bridge.lean ====
/-
  The two programs compute the same messages. They differ in one place: the kernel program projects every NODE's
  features on a half of the gate weight and then takes the projections at an edge's endpoint, the reference gathers
  the endpoint's row per EDGE and projects it. Entry by entry both are the sum `∑ k, h[ρ, k] · w[k]` over the row `ρ`
  the endpoint's index selects (negative indices counted from the end, then clamped to the table), so the gate's
  argument, its `tanh`, the per-edge scale and the scaled source rows agree edge by edge. The remaining differences
  are of layout: the bias spread as a scalar or as a `1×1` array, `tanh` taken on a vector or on a column, the scale
  multiplied in block by block through a broadcast column or at once through a broadcast over the rows.
-/
import proofs.«128665_j91164975825062_2_alg».proof.Proof.KernelRun
import proofs.«128665_j91164975825062_2_alg».proof.Proof.RefRun
import proofs.«128665_j91164975825062_2_alg».proof.Proof.LibGatherProject
import proofs.«128665_j91164975825062_2_alg».proof.Proof.LibKeepdimsColumn
import proofs.«128665_j91164975825062_2_alg».proof.Proof.LibBcastChain
import Idealize.ShloMosaic.Lib.ValueIdx

noncomputable section

namespace Cert.Bridge

open Idealize.ShloMosaic Idealize.ShloMosaic.ValueIdx
open Cert.Lib.RowGather Cert.Lib.ColumnTake Cert.Lib.GatherProject Cert.Lib.BcastChain

variable (x0 : FVec Ideal ⟨2, ![50000, 128]⟩ .f32) (x1 : FVec Ideal ⟨1, ![50000]⟩ .f32) (x2 : FVec Ideal ⟨2, ![1, 256]⟩ .f32)
  (x3 : FVec Ideal ⟨1, ![1]⟩ .f32) (x4 x5 : IVec ⟨1, ![800000]⟩ 32)

/-- The bias reaches every edge: spread as a scalar over the edges, or as a `1×1` array down the column, it is `b[0]`. -/
theorem bias_eq (r : Fin 800000) :
    broadcastInDim Cert.KernelIdeal.S800000 ![] Cert.KernelIdeal.Gen.bcast_S_S800000
        (shapeCast Cert.KernelIdeal.S_ x3 Cert.KernelIdeal.Gen.shapeCasts_S1_S_) (ix1 r)
      = broadcastInDim Cert.ReferenceIdeal.S800000x1 ![0, 1] Cert.ReferenceIdeal.Gen.bcast_S1x1_S800000x1_0_1
          (broadcastInDim Cert.ReferenceIdeal.S1x1 ![1] Cert.ReferenceIdeal.Gen.bcast_S1_S1x1_1 x3) (ix2 r (0 : Fin 1)) := by
  rw [overAll_apply, overRows_apply]
  exact shapeCast_apply x3 _ ix0 (ix1 (0 : Fin 1)) rfl

/-- The gate's argument agrees edge by edge: projecting then taking is gathering then projecting, for both halves. -/
theorem gate_arg_eq (r : Fin 800000) :
    Cert.KernelIdeal.Edges.preGate x0 x2 x3 x4 x5 (ix1 r) = Cert.ReferenceIdeal.Edges.gateColumn x0 x2 x3 x4 x5 (ix2 r (0 : Fin 1)) := by
  unfold Cert.KernelIdeal.Edges.preGate Cert.ReferenceIdeal.Edges.gateColumn
  refine congrArg₂ (· + ·) (congrArg₂ (· + ·) ?_ ?_) (bias_eq x3 r)
  · exact take_proj_eq_proj_rows (N := 50000) (R := 800000) (C := 128) (by decide)
      Cert.KernelIdeal.Gen.gather_S50000x128_S800000x1_S800000x128_1_0_n_n_0_1_1128_wf
      Cert.KernelIdeal.Gen.gather_S50000_S800000x1_S800000_n_0_n_n_0_1_1_wf
      Cert.KernelIdeal.dot_S50000x128_S128x1_S50000x1_1_0_0_1_n_n rfl
      Cert.ReferenceIdeal.dot_S800000x128_S128x1_S800000x1_1_0_0_1_n_n rfl
      Cert.KernelIdeal.Gen.shapeCasts_S50000x1_S50000 none none .single .single x0 _
      (Cert.KernelIdeal.Edges.nodeColumn x5) r
  · exact take_proj_eq_proj_rows (N := 50000) (R := 800000) (C := 128) (by decide)
      Cert.KernelIdeal.Gen.gather_S50000x128_S800000x1_S800000x128_1_0_n_n_0_1_1128_wf
      Cert.KernelIdeal.Gen.gather_S50000_S800000x1_S800000_n_0_n_n_0_1_1_wf
      Cert.KernelIdeal.dot_S50000x128_S128x1_S50000x1_1_0_0_1_n_n rfl
      Cert.ReferenceIdeal.dot_S800000x128_S128x1_S800000x1_1_0_0_1_n_n rfl
      Cert.KernelIdeal.Gen.shapeCasts_S50000x1_S50000 none none .single .single x0 _
      (Cert.KernelIdeal.Edges.nodeColumn x4) r

/-- The per-edge scale agrees edge by edge. -/
theorem scale_eq (r : Fin 800000) :
    Cert.KernelIdeal.Edges.edgeScale x0 x1 x2 x3 x4 x5 (ix1 r) = Cert.ReferenceIdeal.Edges.edgeScale x0 x1 x2 x3 x4 x5 (ix1 r) := by
  unfold Cert.KernelIdeal.Edges.edgeScale Cert.ReferenceIdeal.Edges.edgeScale
  refine congrArg₂ (· * ·) (congrArg₂ (· * ·) ?_ rfl) rfl
  refine Eq.trans ?_ (shapeCast_a1_a_apply (Host.tanh (F := Ideal) (Cert.ReferenceIdeal.Edges.gateColumn x0 x2 x3 x4 x5))
    Cert.ReferenceIdeal.Gen.shapeCasts_S800000x1_S800000 r).symm
  exact congrArg (FloatOps.hostUnary (F := Ideal) .tanh) (gate_arg_eq x0 x2 x3 x4 x5 r)

/-- The messages agree: every edge's source row times the edge's scale. -/
theorem messages_eq :
    Cert.KernelIdeal.Edges.messages x0 x1 x2 x3 x4 x5 = Cert.ReferenceIdeal.Edges.messages x0 x1 x2 x3 x4 x5 := by
  funext j
  obtain ⟨r, k, rfl⟩ : ∃ (r : Fin 800000) (k : Fin 128), j = ix2 r k := ⟨j 0, j 1, eq_ix2 j⟩
  unfold Cert.KernelIdeal.Edges.messages Cert.KernelIdeal.Edges.scaledRows Cert.ReferenceIdeal.Edges.messages
  refine congrArg₂ (· * ·) rfl ?_
  refine ((Cert.Gcn.Lib.shapeCast_a_a1_apply (Cert.KernelIdeal.Edges.edgeScale x0 x1 x2 x3 x4 x5)
    Cert.KernelIdeal.Gen.shapeCasts_S800000_S800000x1 r (0 : Fin 1)).trans (scale_eq x0 x1 x2 x3 x4 x5 r)).trans ?_
  exact (overCols_apply (Cert.ReferenceIdeal.Edges.edgeScale x0 x1 x2 x3 x4 x5)
    Cert.ReferenceIdeal.Gen.bcast_S800000_S800000x1_0 Cert.ReferenceIdeal.Gen.bcast_S800000x1_S800000x128_0_1 r k).symm

/-- The two results agree: the same aggregation of the same messages. -/
theorem result_eq :
    Cert.ReferenceIdeal.Edges.aggregate x5 (Cert.ReferenceIdeal.Edges.messages x0 x1 x2 x3 x4 x5)
      = Cert.KernelIdeal.Edges.aggregate x5 (Cert.KernelIdeal.Edges.messages x0 x1 x2 x3 x4 x5) := by
  rw [messages_eq]
  rfl

end Cert.Bridge

end
-- ==== Proof.lean ====
/-
  A gated graph aggregation: for every edge `(src, dst)` the message `h[src] · e` with the per-edge scale
  `e = tanh(h[dst] · w_dᵀ + h[src] · w_sᵀ + b) · deg[dst] · deg[src]`, summed at each destination node.

  The reference gathers both endpoint rows per edge and projects them on the two halves of the gate weight. The kernel
  program projects every node's features once, takes the two projections at the edge's endpoints, forms `e` on the
  host, multiplies the gathered source rows by `e` in a launch over 100 blocks of 8000 edges, and aggregates on the host
  as the reference does. On the extended reals the two agree exactly: projecting then selecting a row and selecting a
  row then projecting are the same 128-term sum, and everything else is the same operation on the same operands
  (Proof/Bridge.lean). No finiteness of the inputs is used.

  The three frames: the two kernel programs' are the generated frame certificates; the reference has no launch, and
  its frame is its run with the result dropped. Nothing was rewritten for the idealization, so its preservation claim
  is trivial.
-/
import proofs.«128665_j91164975825062_2_alg».proof.Defs
import proofs.«128665_j91164975825062_2_alg».proof.Proof.Gen.Kernel
import proofs.«128665_j91164975825062_2_alg».proof.Proof.Gen.Kernel.Frame
import proofs.«128665_j91164975825062_2_alg».proof.Proof.Gen.KernelIdeal
import proofs.«128665_j91164975825062_2_alg».proof.Proof.Gen.KernelIdeal.Frame
import proofs.«128665_j91164975825062_2_alg».proof.Proof.Gen.ReferenceIdeal
import proofs.«128665_j91164975825062_2_alg».proof.Proof.Gen.Pre_finite_inputs
import proofs.«128665_j91164975825062_2_alg».proof.Proof.Gen.ReferenceIdeal.Run
import proofs.«128665_j91164975825062_2_alg».proof.Proof.KernelRun
import proofs.«128665_j91164975825062_2_alg».proof.Proof.RefRun
import proofs.«128665_j91164975825062_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the aggregation of the messages of the arguments they were launched on; the
    arguments agree, and the two aggregations are one (`Cert.Bridge.result_eq`). -/
theorem algebraic : Cert.algebraic_KernelIdeal_ReferenceIdeal := by
  intro m ρ m' ρ' _ hagree
  refine ⟨_, Cert.KernelIdeal.Edges.run m ρ, ?_⟩
  refine (θ_run Cert.ReferenceIdeal.defs _ _).mono (fun _ h c => ⟨(h c).1.trans ?_, (h c).2⟩)
    (Cert.ReferenceIdeal.Edges.run m' ρ')
  rw [(hagree c).1, (hagree c).2.1, (hagree c).2.2.1, (hagree c).2.2.2.1, (hagree c).2.2.2.2.1, (hagree c).2.2.2.2.2]
  exact Cert.Bridge.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
